-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S20x256 : Shape := ⟨2, ![20, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S8x2048x256 .f32) (main_arg1 : FVec F S20x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S20x256 .f32 := Host.absf main_arg1
  let main_cst_0 : FVec F S_ .f32 := constant S_ .f32 0x7F800000#32
  let main_v5 : FVec F S20x256 .f32 := broadcastInDim S20x256 ![] bcast_S_S20x256 main_cst_0
  let main_v6 : IVec S20x256 1 := cmpf .olt main_v4 main_v5
  let main_c_1 : IVec S_ 1 := constantI S_ 1 1#1
  let main_v7 : IVec S_ 1 := (fun x v => Host.reduce IntOp.andi x v reducesTo_S20x256_S_d0_1 h_S_) main_v6 main_c_1
  let main_v8 : IVec S_ 1 := andi main_v3 main_v7
  main_v8
-- ==== Kernel.lean ====
abbrev S8x2048x256 : Shape := ⟨3, ![8, 2048, 256]⟩
abbrev S20x256 : Shape := ⟨2, ![20, 256]⟩
abbrev S20x256x1 : Shape := ⟨3, ![20, 256, 1]⟩
abbrev S160x256x2048 : Shape := ⟨3, ![160, 256, 2048]⟩
abbrev S1x2048x256 : Shape := ⟨3, ![1, 2048, 256]⟩
abbrev S4x256x1 : Shape := ⟨3, ![4, 256, 1]⟩
abbrev S4x256x2048 : Shape := ⟨3, ![4, 256, 2048]⟩
abbrev S2048x256 : Shape := ⟨2, ![2048, 256]⟩
abbrev S256x2048 : Shape := ⟨2, ![256, 2048]⟩
abbrev S1x256x2048 : Shape := ⟨3, ![1, 256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S20x256, .f32⟩
  | .hbm, ⟨2, _⟩ => ⟨S20x256x1, .f32⟩
  | .hbm, ⟨3, _⟩ => ⟨S160x256x2048, .f32⟩
  | .local _ .vmem, ⟨0, _⟩ => ⟨S1x2048x256, .f32⟩
  | .local _ .vmem, ⟨1, _⟩ => ⟨S1x2048x256, .f32⟩
  | .local _ .vmem, ⟨2, _⟩ => ⟨S4x256x1, .f32⟩
  | .local _ .vmem, ⟨3, _⟩ => ⟨S4x256x1, .f32⟩
  | .local _ .vmem, ⟨4, _⟩ => ⟨S4x256x2048, .f32⟩
  | .local _ .vmem, ⟨5, _⟩ => ⟨S4x256x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S20x256_S20x256x1 : S20x256.ShapeCasts S20x256x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  transposes_S2048x256_p1_0_S256x2048 : S2048x256.Transposes [1, 0] S256x2048
  shapeCasts_S256x2048_S1x256x2048 : S256x2048.ShapeCasts S1x256x2048
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  broadcasts_S1x256x2048_S4x256x2048 : S1x256x2048.Broadcasts S4x256x2048
  broadcasts_S4x256x1_S4x256x2048 : S4x256x1.Broadcasts S4x256x2048
  inb_S4x256x2048_S4x256x2048_0_0_0 : ∀ a, (![0, 0, 0] : Fin 3 → Nat) a + S4x256x2048.size a ≤ S4x256x2048.size a
  h_S4x256x2048 : 0 < S4x256x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1.size a ≤ S20x256x1.size a
  hwx0_1 : ∀ i : grid0.Coords, EltTy.bits .f32 = 32 ∨ (Rect.block (s := S20x256x1) S4x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S160x256x2048.size a
  hwx0_2 : ∀ i : grid0.Coords, EltTy.bits .f32 = 32 ∨ (Rect.block (s := S160x256x2048) S4x256x2048.size (cc0_transform_2 i) (hinb0_2 i)).WholeWords (EltTy.packing .f32)

variable [Facts₀]

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S20x256 : Shape := ⟨2, ![20, 256]⟩
abbrev S8x256x2048 : Shape := ⟨3, ![8, 256, 2048]⟩
abbrev S8x1x256x2048 : Shape := ⟨4, ![8, 1, 256, 2048]⟩
abbrev S1x20x256x1 : Shape := ⟨4, ![1, 20, 256, 1]⟩
abbrev S8x20x256x2048 : Shape := ⟨4, ![8, 20, 256, 2048]⟩
abbrev S160x256x2048 : Shape := ⟨3, ![160, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S20x256, .f32⟩
  | .hbm, ⟨2, _⟩ => ⟨S8x256x2048, .f32⟩
  | .hbm, ⟨3, _⟩ => ⟨S8x1x256x2048, .f32⟩
  | .hbm, ⟨4, _⟩ => ⟨S1x20x256x1, .f32⟩
  | .hbm, ⟨5, _⟩ => ⟨S8x20x256x2048, .f32⟩
  | .hbm, ⟨6, _⟩ => ⟨S8x20x256x2048, .f32⟩
  | .hbm, ⟨7, _⟩ => ⟨S8x20x256x2048, .f32⟩
  | .hbm, ⟨8, _⟩ => ⟨S160x256x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  transposes_S8x2048x256_S8x256x2048_0_2_1 : S8x2048x256.Transposes [0, 2, 1] S8x256x2048
  bcast_S8x256x2048_S8x1x256x2048_0_2_3 : S8x256x2048.BroadcastsInDim S8x1x256x2048 (![0, 2, 3] : Fin 3 → Fin S8x1x256x2048.rank)
  bcast_S20x256_S1x20x256x1_1_2 : S20x256.BroadcastsInDim S1x20x256x1 (![1, 2] : Fin 2 → Fin S1x20x256x1.rank)
  bcast_S8x1x256x2048_S8x20x256x2048_0_1_2_3 : S8x1x256x2048.BroadcastsInDim S8x20x256x2048 (![0, 1, 2, 3] : Fin 4 → Fin S8x20x256x2048.rank)
  bcast_S1x20x256x1_S8x20x256x2048_0_1_2_3 : S1x20x256x1.BroadcastsInDim S8x20x256x2048 (![0, 1, 2, 3] : Fin 4 → Fin S8x20x256x2048.rank)
  shapeCasts_S8x20x256x2048_S160x256x2048 : S8x20x256x2048.ShapeCasts S160x256x2048

variable [Facts₀]

class Facts : Prop extends Facts₀ where

variable [Facts]
-- ==== Proof.Scaled.lean ====
/-
  The function both programs compute.

  From q : [8, 2048, 256] (batch, position, channel) and w : [20, 256] (class, channel) the result
  r : [160, 256, 2048] holds, for batch b < 8, class k < 20, channel d < 256 and position s < 2048,

      r[20·b + k, d, s] = q[b, s, d] · w[k, d].

  Read at an index i of the result: the batch is i₀ / 20 and the class i₀ mod 20, so the entry is q at
  (i₀ / 20, i₂, i₁) times w at (i₀ mod 20, i₁). Each entry is ONE product of one entry of q and one entry of w,
  the factors in this order; there is no sum and no constant. Nothing about the arithmetic of the extended reals is
  therefore used anywhere, and the function is stated for any interpretation `F` of the floats.
-/
import Idealize.ShloMosaic.PureOps.Ideal

noncomputable section

namespace Cert.Reweight

open Idealize.ShloMosaic

/-- The shape of q: batch × position × channel. -/
abbrev QShape : Shape := ⟨3, ![8, 2048, 256]⟩
/-- The shape of w: class × channel. -/
abbrev WShape : Shape := ⟨2, ![20, 256]⟩
/-- The shape of the result: (batch, class) flattened × channel × position. -/
abbrev RShape : Shape := ⟨3, ![160, 256, 2048]⟩

/-- The entry of q that the result reads at `i`: batch `i₀ / 20`, position `i₂`, channel `i₁`. -/
abbrev qIdx (i : RShape.Idx) : QShape.Idx := fun a => match a with
  | ⟨0, _⟩ => ⟨(i 0).val / 20, by have h0 : (i 0).val < 160 := (i 0).isLt; show (i 0).val / 20 < 8; omega⟩
  | ⟨1, _⟩ => ⟨(i 2).val, (i 2).isLt⟩
  | ⟨2, _⟩ => ⟨(i 1).val, (i 1).isLt⟩

/-- The entry of w that the result reads at `i`: class `i₀ mod 20`, channel `i₁`. -/
abbrev wIdx (i : RShape.Idx) : WShape.Idx := fun a => match a with
  | ⟨0, _⟩ => ⟨(i 0).val % 20, by show (i 0).val % 20 < 20; omega⟩
  | ⟨1, _⟩ => ⟨(i 1).val, (i 1).isLt⟩

variable {F : FTy → Type} [FloatOps F]

/-- The reweighted features: entry `i` is q at `qIdx i` times w at `wIdx i`. -/
def scaled (q : QShape.Idx → Elt F .f32) (w : WShape.Idx → Elt F .f32) : RShape.Idx → Elt F .f32 :=
  fun i => FloatOps.mulf (q (qIdx i)) (w (wIdx i))

theorem scaled_apply (q : QShape.Idx → Elt F .f32) (w : WShape.Idx → Elt F .f32) (i : RShape.Idx) :
    scaled q w i = FloatOps.mulf (q (qIdx i)) (w (wIdx i)) := rfl

end Cert.Reweight

end
-- ==== Proof.ReferenceScaled.lean ====
/-
  The reference computes `scaled`.

  The reference transposes q to (batch, channel, position), inserts a unit class axis and repeats it over the 20 classes,
  lays w out as (1, class, channel, 1) and repeats it over batches and positions, multiplies entry by entry in the shape
  [8, 20, 256, 2048], and flattens (batch, class) to one axis of 160. Read backwards from an index i of the result: the
  flattening puts i at row-major position L = (i₀·256 + i₁)·2048 + i₂ of the four-axis array, whose coordinates are
  (L / (20·256·2048), L / (256·2048) mod 20, L / 2048 mod 256, L mod 2048) = (i₀ / 20, i₀ mod 20, i₁, i₂) because
  i₁ < 256 and i₂ < 2048; the two repeats drop the axes they added, and the transpose exchanges channel and position.
  So the q factor is q at (i₀ / 20, i₂, i₁) and the w factor is w at (i₀ mod 20, i₁), in that order.
-/
import proofs.«165425_j72447508349057_2_alg».proof.Proof.Gen.ReferenceIdeal.Read
import proofs.«165425_j72447508349057_2_alg».proof.Proof.Scaled

noncomputable section

namespace Cert.Reweight.Reference

open Cert.ReferenceIdeal Cert.ReferenceIdeal.Read Cert.Reweight Idealize.ShloMosaic

variable {F : FTy → Type} [FloatOps F]

/-- Through the flattening, the two repeats and the transpose, result index `i` reads q at `qIdx i`. -/
theorem q_index (i : S160x256x2048.Idx) : idx_main_v0 (idx_main_v1 (idx_main_v3 (idx_main_v6 i))) = qIdx i := by
  have h0 : (i 0).val < 160 := (i 0).isLt
  have h1 : (i 1).val < 256 := (i 1).isLt
  have h2 : (i 2).val < 2048 := (i 2).isLt
  funext a; apply Fin.ext
  match a with
  | ⟨0, _⟩ => show (((i 0).val * 256 + (i 1).val) * 2048 + (i 2).val) / 10485760 = (i 0).val / 20; omega
  | ⟨1, _⟩ => show (((i 0).val * 256 + (i 1).val) * 2048 + (i 2).val) % 2048 = (i 2).val; omega
  | ⟨2, _⟩ => show (((i 0).val * 256 + (i 1).val) * 2048 + (i 2).val) / 2048 % 256 = (i 1).val; omega

/-- Through the flattening and the two layouts of w, result index `i` reads w at `wIdx i`. -/
theorem w_index (i : S160x256x2048.Idx) : idx_main_v2 (idx_main_v4 (idx_main_v6 i)) = wIdx i := by
  have h0 : (i 0).val < 160 := (i 0).isLt
  have h1 : (i 1).val < 256 := (i 1).isLt
  have h2 : (i 2).val < 2048 := (i 2).isLt
  funext a; apply Fin.ext
  match a with
  | ⟨0, _⟩ => show (((i 0).val * 256 + (i 1).val) * 2048 + (i 2).val) / 524288 % 20 = (i 0).val % 20; omega
  | ⟨1, _⟩ => show (((i 0).val * 256 + (i 1).val) * 2048 + (i 2).val) / 2048 % 256 = (i 1).val; omega

/-- The reference's result, as a function of its two arguments, is `scaled`. -/
theorem result_eq_scaled (x0 : (⟨S8x2048x256, .f32⟩ : BufTy).Contents (Elt F)) (x1 : (⟨S20x256, .f32⟩ : BufTy).Contents (Elt F)) :
    val_main_v6 (F := F) x0 x1 = scaled x0 x1 := by
  funext i
  rw [val_main_v6_apply, val_main_v5_apply, val_main_v3_apply, val_main_v1_apply, val_main_v0_apply,
    val_main_v4_apply, val_main_v2_apply, q_index, w_index]
  rfl

end Cert.Reweight.Reference

end
-- ==== Proof.KernelScaled.lean ====
/-
  The kernel computes `scaled`.

  The grid has 8 × 5 points (b, n): point (b, n) takes batch b of q whole (a [1, 2048, 256] block), classes
  4n … 4n + 3 of w laid out as [20, 256, 1] (a [4, 256, 1] block) and writes block 5b + n of the result, the four rows
  4·(5b + n) … 4·(5b + n) + 3, whole in channel and position. Inside the block, entry (j, d, s) is the q block at
  (0, s, d) — the transposed tile — times the w block at (j, d, 0). In array coordinates the row is
  i₀ = 20b + 4n + j with n < 5 and j < 4, so i₀ / 20 = b and i₀ mod 20 = 4n + j: the q factor is q at
  (i₀ / 20, i₂, i₁) and the w factor is w at (i₀ mod 20, i₁), which is `scaled` at that index. The 40 blocks are the
  40 groups of four consecutive rows, so every index of the result lies in exactly the block of point i₀ / 4, and the
  array after the run is `scaled` everywhere.
-/
import proofs.«165425_j72447508349057_2_alg».proof.Proof.Gen.KernelIdeal.Value
import proofs.«165425_j72447508349057_2_alg».proof.Proof.Scaled
import Idealize.ShloMosaic.Lib.Pipeline.Value
import Idealize.ShloMosaic.Lib.StableHlo.Run

set_option maxRecDepth 16384

noncomputable section

namespace Cert.Reweight.Kernel

open Cert.KernelIdeal Cert.KernelIdeal.Gen Cert.KernelIdeal.Value Cert.Reweight
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The weights as the region finds them -/

/-- Before the region the host lays w out as [20, 256, 1]. -/
theorem weights_entry (c : Dev nD) :
    (V m c main_v0 : S20x256x1.Idx → Elt F .f32)
      = shapeCast S20x256x1 (m ((c : Thread nD τ).loc main_arg1)) shapeCasts_S20x256_S20x256x1 := by
  dsimp only [V, hostOps0]; after_results; rfl

/-- That layout at (k, d, 0) is w at (k, d): a trailing unit axis does not move the row-major position. -/
theorem weights_at (c : Dev nD) (z : S20x256x1.Idx) (k : S20x256.Idx)
    (h0 : (k 0).val = (z 0).val) (h1 : (k 1).val = (z 1).val) :
    V m c main_v0 z = m ((c : Thread nD τ).loc main_arg1) k := by
  have hz2 : (z 2).val < 1 := (z 2).isLt
  refine (congrFun (weights_entry m c) z).trans (shapeCast_apply _ _ z k ?_)
  rw [Shape.rowMajor_val_two, Shape.rowMajor_val_three]
  show (k 0).val * 256 + (k 1).val = ((z 0).val * 256 + (z 1).val) * 1 + (z 2).val
  omega

/-! ## One point's block -/

theorem zero_offsets : (![0, 0, 0] : Fin 3 → Nat) = fun _ => 0 := funext fun a => by fin_cases a <;> rfl

/-- What the body leaves in the output block, from the two input blocks: entry (j, d, s) is the q block at (0, s, d)
    times the w block at (j, d, 0). -/
theorem block_eq (x0 : Vec F S1x2048x256 .f32) (x1 : Vec F S4x256x1 .f32) : out0_2 x0 x1 = E2 x0 x1 := by
  unfold out0_2
  simp only [View.ld_unit_zero (S := S1x2048x256) zero_offsets, View.ld_unit_zero (S := S4x256x1) zero_offsets]
  exact funext fun y => canon2_eq x0 x1 y

/-- The three index maps over the 40 grid points: q's block index is the batch b ≤ 7, w's the class group n ≤ 4, the
    result's 5b + n; every other block coordinate is 0. -/
theorem index_facts : ∀ t : Fin cfg0.N,
    win0_0.index t (0 : Fin 3) ≤ 7 ∧ win0_0.index t (1 : Fin 3) = 0 ∧ win0_0.index t (2 : Fin 3) = 0
    ∧ win0_1.index t (0 : Fin 3) ≤ 4 ∧ win0_1.index t (1 : Fin 3) = 0 ∧ win0_1.index t (2 : Fin 3) = 0
    ∧ win0_2.index t (0 : Fin 3) = 5 * win0_0.index t (0 : Fin 3) + win0_1.index t (0 : Fin 3)
    ∧ win0_2.index t (1 : Fin 3) = 0 ∧ win0_2.index t (2 : Fin 3) = 0 :=
  (by decide +kernel : ∀ t : Fin grid0.N, _)

/-- Every group of four rows is some point's block. -/
theorem index_onto : ∀ g : Fin 40, ∃ t : Fin cfg0.N, win0_2.index t = ![g.val, 0, 0] :=
  (by decide +kernel : ∀ g : Fin 40, ∃ t : Fin grid0.N, win0_2.index t = ![g.val, 0, 0])

/-- WHAT POINT `t` WRITES BACK is block `t` of `scaled` of the two arguments. -/
theorem flushed_eq (c : Dev nD) (t : Fin cfg0.N) :
    (dats m 0 c).flushed 2 t = ((cfg0.win 2).blk t).view.read (Elt F)
      (scaled (m ((c : Thread nD τ).loc main_arg0)) (m ((c : Thread nD τ).loc main_arg1))) := by
  refine (flushed2 m c t).trans ?_
  rw [block_eq (iblk m c 0 t) (iblk m c 1 t)]
  obtain ⟨a0, a1, a2, b0, b1, b2, r0, r1, r2⟩ := index_facts t
  funext y
  have hy0 : (y 0).val < 4 := (y 0).isLt
  have hy1 : (y 1).val < 256 := (y 1).isLt
  have hy2 : (y 2).val < 2048 := (y 2).isLt
  show FloatOps.mulf (V m c main_arg0 (((cfg0.win 0).blk t).view.emb (ix2_0 y))) (V m c main_v0 (((cfg0.win 1).blk t).view.emb (ix2_1 y)))
    = FloatOps.mulf (m ((c : Thread nD τ).loc main_arg0) (qIdx (((cfg0.win 2).blk t).view.emb y)))
        (m ((c : Thread nD τ).loc main_arg1) (wIdx (((cfg0.win 2).blk t).view.emb y)))
  have hq : ((cfg0.win 0).blk t).view.emb (ix2_0 y) = qIdx (((cfg0.win 2).blk t).view.emb y) := by
    funext a; apply Fin.ext
    match a with
    | ⟨0, _⟩ => show win0_0.index t (0 : Fin 3) * 1 + 1 * 0 = (win0_2.index t (0 : Fin 3) * 4 + 1 * (y 0).val) / 20; omega
    | ⟨1, _⟩ => show win0_0.index t (1 : Fin 3) * 2048 + 1 * (y 2).val = win0_2.index t (2 : Fin 3) * 2048 + 1 * (y 2).val; omega
    | ⟨2, _⟩ => show win0_0.index t (2 : Fin 3) * 256 + 1 * (y 1).val = win0_2.index t (1 : Fin 3) * 256 + 1 * (y 1).val; omega
  have hw : V m c main_v0 (((cfg0.win 1).blk t).view.emb (ix2_1 y))
      = m ((c : Thread nD τ).loc main_arg1) (wIdx (((cfg0.win 2).blk t).view.emb y)) := by
    refine weights_at m c _ _ ?_ ?_
    · show (win0_2.index t (0 : Fin 3) * 4 + 1 * (y 0).val) % 20 = win0_1.index t (0 : Fin 3) * 4 + 1 * (y 0).val; omega
    · show win0_2.index t (1 : Fin 3) * 256 + 1 * (y 1).val = win0_1.index t (1 : Fin 3) * 256 + 1 * (y 1).val; omega
  rw [hq, hw, V_main_arg0]

/-! ## From the blocks to the array -/

/-- An index of the result is in point `t`'s block iff each coordinate is in the block's range on its axis. -/
theorem mem_block (t : Fin cfg0.N) (i : S160x256x2048.Idx) :
    i ∈ ((cfg0.win 2).blk t).view.set ↔ ∀ a : Fin 3, win0_2.index t a * S4x256x2048.size a ≤ (i a).val ∧ (i a).val < win0_2.index t a * S4x256x2048.size a + S4x256x2048.size a := by
  show i ∈ ((View.whole main_v1).slice (win0_2.rect t)).set ↔ _
  rw [View.set_slice_whole, Rect.mem_set_unit]
  exact Iff.rfl

/-- Every index of the result is in the block of the point whose block index is `i₀ / 4`. -/
theorem covered (i : S160x256x2048.Idx) :
    ∃ t : Fin cfg0.N, (cfg0.win 2).flush t = true ∧ i ∈ ((cfg0.win 2).blk t).view.set := by
  have hi0 : (i 0).val < 160 := (i 0).isLt
  have hi1 : (i 1).val < 256 := (i 1).isLt
  have hi2 : (i 2).val < 2048 := (i 2).isLt
  obtain ⟨t, ht⟩ := index_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- THE RESULT ARRAY after the run is `scaled` of the two arguments. -/
theorem final (c : Dev nD) :
    (dats m 0 c).arrAt 2 cfg0.N = scaled (m ((c : Thread nD τ).loc main_arg0)) (m ((c : Thread nD τ).loc main_arg1)) :=
  (dats m 0 c).arrAt_eq_of_cover 2 _ (fun t _ => flushed_eq m c t) covered

/-- The kernel's run: every weakly fair execution terminates with the result at `scaled` of the arguments and the
    arguments unchanged. -/
theorem run : θ_run defs (onTc (τ := τ) (main (F := F))) ⟨m, fun _ => 0, ρ⟩ fun r => ∀ c : Dev nD,
      r.2.mem ((c : Thread nD τ).loc main_v1) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Reweight.Kernel

end
-- ==== Proof.lean ====
/-
  The kernel and its reference compute the same reweighted features.

  Both programs take q : [8, 2048, 256] (batch, position, channel) and w : [20, 256] (class, channel) and return
  r : [160, 256, 2048] with r[20·b + k, d, s] = q[b, s, d] · w[k, d] — the function `Cert.Reweight.scaled`
  (Proof/Scaled.lean). The reference gets there by a transpose, two repeats, one entrywise product and a flattening
  (Proof/ReferenceScaled.lean); the kernel by 40 grid points, each transposing one batch of q in place and scaling it
  by four classes of w, whose blocks tile the result (Proof/KernelScaled.lean). Every entry is one product of the same
  two numbers in the same order on both sides, so the two results agree entry by entry as extended reals with no
  arithmetic law at all; the precondition that the inputs are finite is never opened.

  The three frames are the generated ones (the reference's is its generated run with the result dropped); the kernel's
  idealization rewrote no operation, so that conjunct is `True`.
-/
import proofs.«165425_j72447508349057_2_alg».proof.Defs
import proofs.«165425_j72447508349057_2_alg».proof.Proof.Gen.Kernel
import proofs.«165425_j72447508349057_2_alg».proof.Proof.Gen.Kernel.Skeleton
import proofs.«165425_j72447508349057_2_alg».proof.Proof.Gen.Kernel.Launch
import proofs.«165425_j72447508349057_2_alg».proof.Proof.Gen.Kernel.Points
import proofs.«165425_j72447508349057_2_alg».proof.Proof.Gen.Kernel.Frame
import proofs.«165425_j72447508349057_2_alg».proof.Proof.Gen.KernelIdeal
import proofs.«165425_j72447508349057_2_alg».proof.Proof.Gen.KernelIdeal.Skeleton
import proofs.«165425_j72447508349057_2_alg».proof.Proof.Gen.KernelIdeal.Launch
import proofs.«165425_j72447508349057_2_alg».proof.Proof.Gen.KernelIdeal.Points
import proofs.«165425_j72447508349057_2_alg».proof.Proof.Gen.KernelIdeal.Frame
import proofs.«165425_j72447508349057_2_alg».proof.Proof.Gen.ReferenceIdeal
import proofs.«165425_j72447508349057_2_alg».proof.Proof.Gen.Pre_finite_inputs
import proofs.«165425_j72447508349057_2_alg».proof.Proof.Gen.KernelIdeal.Value
import proofs.«165425_j72447508349057_2_alg».proof.Proof.Gen.ReferenceIdeal.Run
import proofs.«165425_j72447508349057_2_alg».proof.Proof.Gen.ReferenceIdeal.Read
import proofs.«165425_j72447508349057_2_alg».proof.Proof.Scaled
import proofs.«165425_j72447508349057_2_alg».proof.Proof.ReferenceScaled
import proofs.«165425_j72447508349057_2_alg».proof.Proof.KernelScaled
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on q and w, the kernel's result array and the reference's both end at `scaled q w`. -/
theorem algebraic : Cert.algebraic_KernelIdeal_ReferenceIdeal := by
  intro m ρ m' ρ' _ hagree
  refine ⟨fun c => Cert.Reweight.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Reweight.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Reweight.Reference.result_eq_scaled, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
